-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x1600000 : Shape := ⟨2, ![2, 1600000]⟩
abbrev S512x64 : Shape := ⟨2, ![512, 64]⟩
abbrev S64 : Shape := ⟨1, ![64]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S100000x512 .f32) (main_arg1 : IVec S2x1600000 32) (main_arg2 : FVec F S512x64 .f32) (main_arg3 : FVec F S64 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x64 .f32 := Host.absf main_arg2
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S100000x512 : Shape := ⟨2, ![100000, 512]⟩
abbrev S2x1600000 : Shape := ⟨2, ![2, 1600000]⟩
abbrev S512x64 : Shape := ⟨2, ![512, 64]⟩
abbrev S64 : Shape := ⟨1, ![64]⟩
abbrev S100000x64 : Shape := ⟨2, ![100000, 64]⟩
abbrev S2000x512 : Shape := ⟨2, ![2000, 512]⟩
abbrev S2000x64 : Shape := ⟨2, ![2000, 64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S2000 : Shape := ⟨1, ![2000]⟩
abbrev S2000x1 : Shape := ⟨2, ![2000, 1]⟩

abbrev nBuf : Space → Nat
  | .hbm => 66
  | .vmem => 10
  | .smem => 0
  | _ => 0

abbrev bufTy : (tb : Table) → Fin (tcTables nBuf tb) → BufTy
  | .hbm, ⟨0, _⟩ => ⟨S100000x512, .f32⟩
  | .hbm, ⟨1, _⟩ => ⟨S2x1600000, .i32⟩
  | .hbm, ⟨2, _⟩ => ⟨S512x64, .f32⟩
  | .hbm, ⟨3, _⟩ => ⟨S64, .f32⟩
  | .hbm, ⟨4, _⟩ => ⟨S100000x64, .f32⟩
  | .hbm, ⟨5, _⟩ => ⟨S100000, .i32⟩
  | .hbm, ⟨6, _⟩ => ⟨S1x1600000, .i32⟩
  | .hbm, ⟨7, _⟩ => ⟨S1600000, .i32⟩
  | .hbm, ⟨8, _⟩ => ⟨S1700000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S_, .f32⟩
  | .hbm, ⟨13, _⟩ => ⟨S1700000, .f32⟩
  | .hbm, ⟨14, _⟩ => ⟨S_, .f32⟩
  | .hbm, ⟨15, _⟩ => ⟨S100000, .f32⟩
  | .hbm, ⟨16, _⟩ => ⟨S1700000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .i1⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x64, .f32⟩
  | .hbm, ⟨57, _⟩ => ⟨S1700000x1, .f32⟩
  | .hbm, ⟨58, _⟩ => ⟨S1700000x64, .f32⟩
  | .hbm, ⟨59, _⟩ => ⟨S1700000x64, .f32⟩
  | .hbm, ⟨60, _⟩ => ⟨S_, .f32⟩
  | .hbm, ⟨61, _⟩ => ⟨S100000x64, .f32⟩
  | .hbm, ⟨62, _⟩ => ⟨S1700000x1, .i32⟩
  | .hbm, ⟨63, _⟩ => ⟨S100000x64, .f32⟩
  | .hbm, ⟨64, _⟩ => ⟨S1x64, .f32⟩
  | .hbm, ⟨65, _⟩ => ⟨S100000x64, .f32⟩
  | .local _ .vmem, ⟨0, _⟩ => ⟨S2000x512, .f32⟩
  | .local _ .vmem, ⟨1, _⟩ => ⟨S2000x512, .f32⟩
  | .local _ .vmem, ⟨2, _⟩ => ⟨S512x64, .f32⟩
  | .local _ .vmem, ⟨3, _⟩ => ⟨S2000x64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S1x64, .f32⟩
  | .local _ .vmem, ⟨8, _⟩ => ⟨S2000x64, .f32⟩
  | .local _ .vmem, ⟨9, _⟩ => ⟨S2000x64, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v17 : Ref sig .tc := ⟨.hbm, 28, rfl⟩
abbrev main_c : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_c_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_c_8 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_9 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x64_S512x64_0_0 : ∀ a, (![0, 0] : Fin 2 → Nat) a + S512x64.size a ≤ S512x64.size a
  h_S512x64 : 0 < S512x64.numel
  inb_S2000x64_S2000x64_0_0 : ∀ a, (![0, 0] : Fin 2 → Nat) a + S2000x64.size a ≤ S2000x64.size a
  h_S2000x64 : 0 < S2000x64.numel
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  reduces_S2000x64_S2000 : S2000x64.Reduces [1] S2000
  shapeCasts_S2000_S2000x1 : S2000.ShapeCasts S2000x1
  broadcasts_S2000x1_S2000x64 : S2000x1.Broadcasts S2000x64
  dot_S2000x512_S512x64_S2000x64_1_0_0_1_n_n_wf : DotDims.WF S2000x512 S512x64 S2000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .f32 = 32 ∨ (Rect.block (s := S512x64) S512x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S100000x64.size a
  hwx0_2 : ∀ i : grid0.Coords, EltTy.bits .f32 = 32 ∨ (Rect.block (s := S100000x64) S2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S100000x64.size a
  hwx1_2 : ∀ i : grid1.Coords, EltTy.bits .f32 = 32 ∨ (Rect.block (s := S100000x64) S2000x64.size (cc1_transform_2 i) (hinb1_2 i)).WholeWords (EltTy.packing .f32)

variable [Facts₀]

def dot_S2000x512_S512x64_S2000x64_1_0_0_1_n_n : DotDims S2000x512 S512x64 S2000x64 where
  lhsContracting := [1]
  rhsContracting := [0]
  lhsNonContracting := [0]
  rhsNonContracting := [1]
  lhsBatch := []
  rhsBatch := []
  wf := dot_S2000x512_S512x64_S2000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S2000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x512 : Shape := ⟨2, ![100000, 512]⟩
abbrev S2x1600000 : Shape := ⟨2, ![2, 1600000]⟩
abbrev S512x64 : Shape := ⟨2, ![512, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x1 : Shape := ⟨2, ![100000, 1]⟩

abbrev nBuf : Space → Nat
  | .hbm => 82
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x1600000, .i32⟩
  | .hbm, ⟨2, _⟩ => ⟨S512x64, .f32⟩
  | .hbm, ⟨3, _⟩ => ⟨S64, .f32⟩
  | .hbm, ⟨4, _⟩ => ⟨S100000, .i32⟩
  | .hbm, ⟨5, _⟩ => ⟨S1x1600000, .i32⟩
  | .hbm, ⟨6, _⟩ => ⟨S1600000, .i32⟩
  | .hbm, ⟨7, _⟩ => ⟨S1700000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S_, .f32⟩
  | .hbm, ⟨12, _⟩ => ⟨S1700000, .f32⟩
  | .hbm, ⟨13, _⟩ => ⟨S_, .f32⟩
  | .hbm, ⟨14, _⟩ => ⟨S100000, .f32⟩
  | .hbm, ⟨15, _⟩ => ⟨S1700000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S100000x64, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x64, .f32⟩
  | .hbm, ⟨57, _⟩ => ⟨S1700000x1, .f32⟩
  | .hbm, ⟨58, _⟩ => ⟨S1700000x64, .f32⟩
  | .hbm, ⟨59, _⟩ => ⟨S1700000x64, .f32⟩
  | .hbm, ⟨60, _⟩ => ⟨S_, .f32⟩
  | .hbm, ⟨61, _⟩ => ⟨S100000x64, .f32⟩
  | .hbm, ⟨62, _⟩ => ⟨S1700000x1, .i32⟩
  | .hbm, ⟨63, _⟩ => ⟨S100000x64, .f32⟩
  | .hbm, ⟨64, _⟩ => ⟨S1x64, .f32⟩
  | .hbm, ⟨65, _⟩ => ⟨S100000x64, .f32⟩
  | .hbm, ⟨66, _⟩ => ⟨S100000x64, .f32⟩
  | .hbm, ⟨67, _⟩ => ⟨S_, .f32⟩
  | .hbm, ⟨68, _⟩ => ⟨S100000, .f32⟩
  | .hbm, ⟨69, _⟩ => ⟨S_, .f32⟩
  | .hbm, ⟨70, _⟩ => ⟨S100000, .f32⟩
  | .hbm, ⟨71, _⟩ => ⟨S100000, .f32⟩
  | .hbm, ⟨72, _⟩ => ⟨S100000x1, .f32⟩
  | .hbm, ⟨73, _⟩ => ⟨S100000x64, .f32⟩
  | .hbm, ⟨74, _⟩ => ⟨S100000x64, .f32⟩
  | .hbm, ⟨75, _⟩ => ⟨S100000x64, .f32⟩
  | .hbm, ⟨76, _⟩ => ⟨S_, .f32⟩
  | .hbm, ⟨77, _⟩ => ⟨S100000, .f32⟩
  | .hbm, ⟨78, _⟩ => ⟨S100000x1, .f32⟩
  | .hbm, ⟨79, _⟩ => ⟨S100000x1, .f32⟩
  | .hbm, ⟨80, _⟩ => ⟨S100000x64, .f32⟩
  | .hbm, ⟨81, _⟩ => ⟨S100000x64, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_call0_v0 : Ref sig .tc := ⟨.hbm, 25, rfl⟩
abbrev main_call0_v1 : Ref sig .tc := ⟨.hbm, 26, rfl⟩
abbrev main_v16 : Ref sig .tc := ⟨.hbm, 27, rfl⟩
abbrev main_c : Ref sig .tc := ⟨.hbm, 28, rfl⟩
abbrev main_v17 : Ref sig .tc := ⟨.hbm, 29, rfl⟩
abbrev main_v18 : Ref sig .tc := ⟨.hbm, 30, rfl⟩
abbrev main_c_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_c_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_c_8 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_9 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_call1_cst : Ref sig .tc := ⟨.hbm, 67, rfl⟩
abbrev main_call1_v0 : Ref sig .tc := ⟨.hbm, 68, rfl⟩
abbrev main_call1_cst_0 : Ref sig .tc := ⟨.hbm, 69, rfl⟩
abbrev main_call1_v1 : Ref sig .tc := ⟨.hbm, 70, rfl⟩
abbrev main_call1_v2 : Ref sig .tc := ⟨.hbm, 71, rfl⟩
abbrev main_call1_v3 : Ref sig .tc := ⟨.hbm, 72, rfl⟩
abbrev main_call1_v4 : Ref sig .tc := ⟨.hbm, 73, rfl⟩
abbrev main_call1_v5 : Ref sig .tc := ⟨.hbm, 74, rfl⟩
abbrev main_call1_v6 : Ref sig .tc := ⟨.hbm, 75, rfl⟩
abbrev main_call1_cst_1 : Ref sig .tc := ⟨.hbm, 76, rfl⟩
abbrev main_call1_v7 : Ref sig .tc := ⟨.hbm, 77, rfl⟩
abbrev main_call1_v8 : Ref sig .tc := ⟨.hbm, 78, rfl⟩
abbrev main_call1_v9 : Ref sig .tc := ⟨.hbm, 79, rfl⟩
abbrev main_call1_v10 : Ref sig .tc := ⟨.hbm, 80, rfl⟩
abbrev main_v49 : Ref sig .tc := ⟨.hbm, 81, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x512_S512x64_S100000x64_1_0_0_1_n_n_wf : DotDims.WF S100000x512 S512x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x512_S512x64_S100000x64_1_0_0_1_n_n : DotDims S100000x512 S512x64 S100000x64 where
  lhsContracting := [1]
  rhsContracting := [0]
  lhsNonContracting := [0]
  rhsNonContracting := [1]
  lhsBatch := []
  rhsBatch := []
  wf := dot_S100000x512_S512x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.LibPlainMatmul.lean ====
/-
  A plain matrix product read at an index, over the extended reals.

  For the dimension numbers of an ordinary product of an `R × n` matrix by an `n × k` matrix (the left operand
  contracted on its second axis, the right one on its first, no batch axis), a product accumulated into the zero
  matrix is, at row `q` and column `o`, the sum over `c : Fin n` of `A (q, c) * B (c, o)`: the zero accumulator
  contributes `0 + _`, and the contraction index, a one-axis multi-index, is re-indexed by its one coordinate.
  The statement quantifies over the well-formedness proof only, so it applies to any record with these six lists.
-/
import Idealize.ShloMosaic.PureOps.Ideal
import Idealize.ShloMosaic.PureOps.Ideal.Laws
import Idealize.ShloMosaic.Lib.ValueIdx

noncomputable section

namespace Cert.PointConv

open Idealize.ShloMosaic Idealize.ShloMosaic.ValueIdx

/-- The dimension numbers of an ordinary `R × n` by `n × k` product, for any proof that they are well formed. -/
abbrev plainDims (R n k : Nat)
    (wf : DotDims.WF (⟨2, ![R, n]⟩ : Shape) ⟨2, ![n, k]⟩ ⟨2, ![R, k]⟩ [1] [0] [0] [1] [] []) :
    DotDims (⟨2, ![R, n]⟩ : Shape) ⟨2, ![n, k]⟩ ⟨2, ![R, k]⟩ :=
  { lhsContracting := [1], rhsContracting := [0], lhsNonContracting := [0], rhsNonContracting := [1],
    lhsBatch := [], rhsBatch := [], wf := wf }

theorem plainDims_contr_rank {R n k : Nat} (wf) : (plainDims R n k wf).contr.rank = 1 := rfl

theorem plainDims_contr_size {R n k : Nat} (wf) :
    (plainDims R n k wf).contr.size ⟨0, by rw [plainDims_contr_rank]; exact Nat.one_pos⟩ = n := rfl

/-- The contraction index of such a product is one coordinate in `Fin n`. -/
abbrev plainContr {R n k : Nat} (wf) : (plainDims R n k wf).contr.Idx ≃ Fin n :=
  contrEquiv1 (plainDims R n k wf) n (plainDims_contr_rank wf) (plainDims_contr_size wf)

/-- The left operand's index at output `(q, o)` and contraction coordinate `c` is `(q, c)`. -/
theorem plainDims_lhsIdx {R n k : Nat} (wf) (q : Fin R) (o : Fin k) (c : Fin n) :
    (plainDims R n k wf).lhsIdx (ix2 q o) ((plainContr wf).symm c) = ix2 q c := by
  funext a
  apply Fin.ext
  match a with
  | ⟨0, h0⟩ =>
    unfold DotDims.lhsIdx
    rw [dif_neg (show ¬(⟨0, h0⟩ : Fin (⟨2, ![R, n]⟩ : Shape).rank) ∈ (plainDims R n k wf).lhsBatch from List.not_mem_nil),
      dif_pos (show (⟨0, h0⟩ : Fin (⟨2, ![R, n]⟩ : Shape).rank) ∈ (plainDims R n k wf).lhsNonContracting from
        List.mem_singleton.mpr rfl)]
    rfl
  | ⟨1, h1⟩ =>
    exact ((plainDims R n k wf).lhsIdx_val_of_single (cl := ⟨1, h1⟩) rfl _ _).trans
      (contrEquiv1_symm_val (plainDims R n k wf) n (plainDims_contr_rank wf) (plainDims_contr_size wf) c)

/-- The right operand's index there is `(c, o)`. -/
theorem plainDims_rhsIdx {R n k : Nat} (wf) (q : Fin R) (o : Fin k) (c : Fin n) :
    (plainDims R n k wf).rhsIdx (ix2 q o) ((plainContr wf).symm c) = ix2 c o := by
  funext a
  apply Fin.ext
  match a with
  | ⟨0, h0⟩ =>
    exact ((plainDims R n k wf).rhsIdx_val_of_single (cr := ⟨0, h0⟩) rfl _ _).trans
      (contrEquiv1_symm_val (plainDims R n k wf) n (plainDims_contr_rank wf) (plainDims_contr_size wf) c)
  | ⟨1, h1⟩ =>
    unfold DotDims.rhsIdx
    rw [dif_neg (show ¬(⟨1, h1⟩ : Fin (⟨2, ![n, k]⟩ : Shape).rank) ∈ (plainDims R n k wf).rhsBatch from List.not_mem_nil),
      dif_pos (show (⟨1, h1⟩ : Fin (⟨2, ![n, k]⟩ : Shape).rank) ∈ (plainDims R n k wf).rhsNonContracting from
        List.mem_singleton.mpr rfl)]
    rfl

/-- A product accumulated into the zero matrix, at `(q, o)`: the sum over the shared axis. -/
theorem plainMatmul_zero_apply {R n k : Nat} {φ₁ φ₂ : FTy} (wf) (prec : Option ContractPrecision)
    (A : FVec Ideal (⟨2, ![R, n]⟩ : Shape) φ₁) (B : FVec Ideal (⟨2, ![n, k]⟩ : Shape) φ₂) (q : Fin R) (o : Fin k) :
    FloatOps.matmul (plainDims R n k wf) prec A B (constant (F := Ideal) (⟨2, ![R, k]⟩ : Shape) .f32 0x00000000#32) (ix2 q o)
      = ∑ c : Fin n, A (ix2 q c) * B (ix2 c o) := by
  rw [Ideal.matmul_constant_zero_apply, ← Equiv.sum_comp (plainContr wf).symm]
  refine Finset.sum_congr rfl fun c _ => ?_
  rw [plainDims_lhsIdx, plainDims_rhsIdx]

end Cert.PointConv

end
-- ==== Proof.LibRowForms.lean ====
/-
  Row reductions of a matrix, and a column laid along the rows, read at an index.

  Reducing a matrix `[a, b]` along its second axis gives a vector `[a]` whose entry `i` depends on row `i` alone: for a
  sum it is the sum of the row's `b` entries, for a maximum the fold of `max` over them from the initial value. And a
  column `[b, 1]`, transposed to the row `[1, b]` and copied down to `[a, b]`, has at `(i, j)` entry `j` of the column,
  whatever `i`. Every index is written by its coordinates.
-/
import Idealize.ShloMosaic.PureOps.Ideal.Laws
import Idealize.ShloMosaic.Lib.ValueIdx
import Idealize.ShloMosaic.Lib.ValueLayout

namespace Cert.RowForms

open Idealize.ShloMosaic Idealize.ShloMosaic.ValueIdx

/-- The index of the matrix that reduces to `i` along the second axis and has `k` there is `(i, k)`. -/
theorem lift_row {a b : ℕ} (h : (⟨2, ![a, b]⟩ : Shape).Reduces [1] ⟨1, ![a]⟩) (i : Fin a)
    (k : Fin ((⟨2, ![a, b]⟩ : Shape).size 1)) : h.lift (ix1 i) k = ix2 i (⟨k.val, k.isLt⟩ : Fin b) := by
  funext d; apply Fin.ext
  match d with
  | ⟨0, _⟩ => rfl
  | ⟨1, _⟩ => rfl

/-- A float sum along the rows, from the zero word, at `i`: the sum of row `i`. -/
theorem multiReduction_add_rows {a b : ℕ} (src : FVec Ideal ⟨2, ![a, b]⟩ .f32)
    (h : (⟨2, ![a, b]⟩ : Shape).Reduces [1] ⟨1, ![a]⟩) (i : Fin a) :
    multiReduction .add [1] ⟨1, ![a]⟩ src 0x00000000#32 h (.inl rfl) rfl (ix1 i) = ∑ k : Fin b, src (ix2 i k) :=
  (Ideal.multiReduction_add_single src 0x00000000#32 h (.inl rfl) rfl (ix1 i)).trans
    (Finset.sum_congr rfl fun k _ => congrArg src (lift_row h i k))

/-- A float maximum along the rows, from the word of minus infinity, at `i`: the fold of `max` over row `i`. -/
theorem multiReduction_max_rows {a b : ℕ} (src : FVec Ideal ⟨2, ![a, b]⟩ .f32)
    (h : (⟨2, ![a, b]⟩ : Shape).Reduces [1] ⟨1, ![a]⟩) (i : Fin a) :
    multiReduction .maximumf [1] ⟨1, ![a]⟩ src 0xFF800000#32 h (.inl rfl) rfl (ix1 i)
      = (Finset.univ : Finset (Fin b)).fold max (Ideal.ofBits .f32 0xFF800000#32) (fun k => src (ix2 i k)) :=
  (Ideal.multiReduction_maximumf_single src 0xFF800000#32 h (.inl rfl) rfl (ix1 i)).trans
    (congrArg (fun f => Finset.fold max (Ideal.ofBits .f32 0xFF800000#32) f (Finset.univ : Finset (Fin b)))
      (funext fun k => congrArg src (lift_row h i k)))

/-- A column `[b, 1]` transposed to a row `[1, b]` and copied down to `[a, b]` reads, at `(i, j)`, the column at `(j, 0)`. -/
theorem rowOfColumn_apply {α : Type} {a b : ℕ} (col : (⟨2, ![b, 1]⟩ : Shape).Idx → α)
    (ht : (⟨2, ![b, 1]⟩ : Shape).Transposes [1, 0] ⟨2, ![1, b]⟩)
    (hb : (⟨2, ![1, b]⟩ : Shape).Broadcasts ⟨2, ![a, b]⟩) (i : Fin a) (j : Fin b) :
    broadcastTo ⟨2, ![a, b]⟩ (transpose ⟨2, ![1, b]⟩ [1, 0] col ht) hb (ix2 i j) = col (ix2 j (0 : Fin 1)) :=
  (broadcastTo_1b_ab_apply _ hb i j).trans (transpose_ix2_apply col ht (0 : Fin 1) j)

end Cert.RowForms
-- ==== Proof.LibColumnForms.lean ====
/-
  A column vector read at an index.

  Summing a matrix along its rows with the summed axis kept gives a column: the sums, an `[a]` vector, are laid out as
  `[a, 1]`, and the column is then copied along a new second axis to `[a, b]`. Entry `(i, j)` of the result is
  entry `i` of the vector, whatever `j`. The two lemmas below say this one layout step at a time, every index
  written by its coordinates.
-/
import Idealize.ShloMosaic.Lib.Pipeline.Value
import Idealize.ShloMosaic.Lib.ValueIdx

namespace Cert.ColumnForms

open Idealize.ShloMosaic Idealize.ShloMosaic.ValueIdx

variable {α : Type}

/-- A vector `[a]` laid out as a column `[a, 1]` reads, at `(i, u)`, the vector at `i`: the row-major position
    `i · 1 + u` of `(i, u)` is `i`, the unit coordinate `u` being `0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` copied along its unit axis to `[a, b]` reads, at `(i, j)`, the column at `(i, 0)`: the first
    coordinate is kept (also when `a = 1`, where it is `0` anyway), the second is the unit axis's only one. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.ColumnForms
-- ==== Proof.LibRowSoftmax.lean ====
/-
  The log-softmax of the rows of a matrix, computed on the vector unit, read at an entry.

  For a row `o` the log-softmax at `c` is `(o_c - M) - log Σ_k exp (o_k - M)`, `M` the row's greatest entry. A kernel
  computes it for every row of a block `[R, d]` at once: the row maxima are a reduction along the second axis from the
  word of minus infinity, the reduced vector `[R]` is laid out as a column `[R, 1]` and copied along the row, the
  exponentials of the differences are summed by a reduction from the zero word, and the logarithms of the sums are laid out
  and copied the same way. At `(q, o)` the result is `lsmRow` of row `q`. A host library that takes the row maximum once more
  against minus infinity computes the same thing: a fold of `max` from `b` is already at least `b`.
-/
import Idealize.ShloMosaic.PureOps.Ideal
import Idealize.ShloMosaic.Lib.ValueIdx
import Idealize.ShloMosaic.Lib.Pipeline.Value
import Mathlib.Data.Finset.Fold
import proofs.«121093_j83631603187959_2_alg».proof.Proof.LibRowForms
import proofs.«121093_j83631603187959_2_alg».proof.Proof.LibColumnForms

noncomputable section

open scoped BigOperators

namespace Cert.RowSoftmax

open Idealize.ShloMosaic Idealize.ShloMosaic.ValueIdx

/-- The log-softmax of a row `o` at `c`: `(o_c - M) - log Σ_k exp (o_k - M)`, `M` the row's greatest entry, taken as
    the fold of `max` from `ninf`. -/
def lsmRow {d : ℕ} (ninf : EReal) (o : Fin d → EReal) (c : Fin d) : EReal :=
  (o c - Finset.univ.fold max ninf o) - Ideal.log (∑ k : Fin d, Ideal.exp (o k - Finset.univ.fold max ninf o))

/-- A fold of `max` from `b` is at least `b`, so taking the maximum with `b` once more changes nothing. -/
theorem max_fold_max_self {ι : Type} (s : Finset ι) (b : EReal) (f : ι → EReal) :
    max b (s.fold max b f) = s.fold max b f :=
  max_eq_right (Finset.le_fold_max b |>.mpr (Or.inl le_rfl))

/-- The row normalisation on a block `[R, d]`: at `(q, o)` the log-softmax of row `q`. -/
theorem block_lsm_apply {R d : ℕ} (pre : FVec Ideal ⟨2, ![R, d]⟩ .f32)
    (hr : (⟨2, ![R, d]⟩ : Shape).Reduces [1] ⟨1, ![R]⟩) (hc : (⟨1, ![R]⟩ : Shape).ShapeCasts ⟨2, ![R, 1]⟩)
    (hb : (⟨2, ![R, 1]⟩ : Shape).Broadcasts ⟨2, ![R, d]⟩) (q : Fin R) (o : Fin d) :
    subf (subf pre (broadcastTo ⟨2, ![R, d]⟩ (shapeCast ⟨2, ![R, 1]⟩
        (multiReduction .maximumf [1] ⟨1, ![R]⟩ pre 0xFF800000#32 hr (.inl rfl) rfl) hc) hb))
      (broadcastTo ⟨2, ![R, d]⟩ (log (shapeCast ⟨2, ![R, 1]⟩
        (multiReduction .add [1] ⟨1, ![R]⟩ (exp (subf pre (broadcastTo ⟨2, ![R, d]⟩ (shapeCast ⟨2, ![R, 1]⟩
          (multiReduction .maximumf [1] ⟨1, ![R]⟩ pre 0xFF800000#32 hr (.inl rfl) rfl) hc) hb))) 0x00000000#32 hr (.inl rfl) rfl) hc)) hb) (ix2 q o)
      = lsmRow (Ideal.ofBits .f32 0xFF800000#32) (fun c => pre (ix2 q c)) o := by
  have hmax : ∀ o' : Fin d, broadcastTo ⟨2, ![R, d]⟩ (shapeCast ⟨2, ![R, 1]⟩
        (multiReduction .maximumf [1] ⟨1, ![R]⟩ pre 0xFF800000#32 hr (.inl rfl) rfl) hc) hb (ix2 q o')
      = Finset.univ.fold max (Ideal.ofBits .f32 0xFF800000#32) (fun c => pre (ix2 q c)) := fun o' => by
    rw [Cert.ColumnForms.broadcastTo_a1_ab_apply, Cert.ColumnForms.shapeCast_a_a1_apply, Cert.RowForms.multiReduction_max_rows]
  rw [subf_apply, subf_apply, hmax, Cert.ColumnForms.broadcastTo_a1_ab_apply]
  unfold lsmRow
  refine congrArg (pre (ix2 q o) - _ - ·) ?_
  show Ideal.log (shapeCast ⟨2, ![R, 1]⟩ _ hc (ix2 q (0 : Fin 1))) = _
  rw [Cert.ColumnForms.shapeCast_a_a1_apply, Cert.RowForms.multiReduction_add_rows]
  refine congrArg Ideal.log (Finset.sum_congr rfl fun c _ => ?_)
  show Ideal.exp (pre (ix2 q c) - _) = _
  rw [hmax]

end Cert.RowSoftmax

end
-- ==== Proof.Spec.lean ====
/-
  What the graph layer computes, entry by entry, over the extended reals.

  The layer multiplies the node features `x` (100000 × 512) by the weights `W` (512 × 64), passes the product through
  the normalised neighbour aggregation (a gather and a scatter-add by the edge list, the same host operations in both
  programs, carried here as one function and never opened), adds the bias `b` to every row and takes the
  log-softmax of each row. Two entry-wise formulas are stated: the product at row `q`, column `o`, and the biased
  log-softmax of row `q` at column `o`. A matrix given by its entries is `ofEntries`.
-/
import Idealize.ShloMosaic.PureOps.Ideal
import Idealize.ShloMosaic.Lib.ValueIdx
import proofs.«121093_j83631603187959_2_alg».proof.Proof.LibRowSoftmax

noncomputable section

open scoped BigOperators

namespace Cert.GraphLayer

open Idealize.ShloMosaic Idealize.ShloMosaic.ValueIdx

/-- The matrix whose entry at row `q`, column `o` is `f q o`. -/
def ofEntries {a b : ℕ} (f : Fin a → Fin b → EReal) : (⟨2, ![a, b]⟩ : Shape).Idx → EReal :=
  fun i => f (i 0) (i 1)

theorem ofEntries_apply {a b : ℕ} (f : Fin a → Fin b → EReal) (q : Fin a) (o : Fin b) :
    ofEntries f (ix2 q o) = f q o := rfl

/-- Two matrices with the same entries are equal. -/
theorem eq_ofEntries {a b : ℕ} (A : (⟨2, ![a, b]⟩ : Shape).Idx → EReal) (f : Fin a → Fin b → EReal)
    (h : ∀ q o, A (ix2 q o) = f q o) : A = ofEntries f := by
  funext i
  obtain ⟨q, o, rfl⟩ : ∃ (q : Fin a) (o : Fin b), i = ix2 q o := ⟨i 0, i 1, eq_ix2 i⟩
  exact h q o

/-- The product `x · W` at row `q`, column `o`: the sum over the 512 shared coordinates. -/
def product (x : (⟨2, ![100000, 512]⟩ : Shape).Idx → EReal) (W : (⟨2, ![512, 64]⟩ : Shape).Idx → EReal)
    (q : Fin 100000) (o : Fin 64) : EReal :=
  ∑ c : Fin 512, x (ix2 q c) * W (ix2 c o)

/-- Row `q` of `a` with the bias added entry by entry, then the log-softmax of that row at column `o`. -/
def biasedLogSoftmax (a : (⟨2, ![100000, 64]⟩ : Shape).Idx → EReal) (b : (⟨1, ![64]⟩ : Shape).Idx → EReal)
    (q : Fin 100000) (o : Fin 64) : EReal :=
  Cert.RowSoftmax.lsmRow (Ideal.ofBits .f32 0xFF800000#32) (fun k => a (ix2 q k) + b (ix1 k)) o

/-- The same with the bias given as a one-row matrix. -/
def rowNormalised (a : (⟨2, ![100000, 64]⟩ : Shape).Idx → EReal) (b2 : (⟨2, ![1, 64]⟩ : Shape).Idx → EReal)
    (q : Fin 100000) (o : Fin 64) : EReal :=
  Cert.RowSoftmax.lsmRow (Ideal.ofBits .f32 0xFF800000#32) (fun k => a (ix2 q k) + b2 (ix2 (0 : Fin 1) k)) o

/-- The bias vector laid out as a one-row matrix has the vector's entries. -/
theorem rowNormalised_reshape (a : (⟨2, ![100000, 64]⟩ : Shape).Idx → EReal) (b : (⟨1, ![64]⟩ : Shape).Idx → EReal)
    (h : (⟨1, ![64]⟩ : Shape).ShapeCasts ⟨2, ![1, 64]⟩) :
    rowNormalised a (shapeCast ⟨2, ![1, 64]⟩ b h) = biasedLogSoftmax a b := by
  funext q o
  unfold rowNormalised biasedLogSoftmax
  refine congrArg (fun f => Cert.RowSoftmax.lsmRow (Ideal.ofBits .f32 0xFF800000#32) f o) (funext fun k => ?_)
  refine congrArg (a (ix2 q k) + ·) ?_
  refine (shapeCast_addUnit_apply ![64] b h (ix2 (0 : Fin 1) k)).trans (congrArg b (funext fun d => ?_))
  match d with
  | ⟨0, _⟩ => rfl

end Cert.GraphLayer

end
-- ==== Proof.Linear.lean ====
/-
  The first kernel region: the node features times the weights, block by block.

  At grid point `t` the body loads rows `2000·t … 2000·t + 1999` of `x` and the whole of `W`, multiplies them into a zero
  accumulator (the narrowing of the operands to bf16 is the identity over the extended reals) and stores the
  2000 × 64 product as block `t` of the result. So entry `(p, o)` of what point `t` writes back is
  `Σ_c x (2000·t + p, c) · W (c, o)`, which is entry `(2000·t + p, o)` of the whole product `x · W`; the fifty blocks
  cover the 100000 rows, so after the region the result array is `x · W`.
-/
import proofs.«121093_j83631603187959_2_alg».proof.Proof.Gen.KernelIdeal.Frame
import proofs.«121093_j83631603187959_2_alg».proof.Proof.LibPlainMatmul
import proofs.«121093_j83631603187959_2_alg».proof.Proof.Spec
import Idealize.ShloMosaic.Lib.Pipeline.Value
import Idealize.ShloMosaic.Lib.ValueIdx

noncomputable section

open scoped BigOperators

namespace Cert.KernelIdeal.Linear

open Idealize.ShloMosaic Idealize.ShloMosaic.TcCoe Idealize.SL.Sem Idealize.ShloMosaic.ValueIdx
open Idealize.ShloMosaic.Pipeline (Dat)
open Cert.KernelIdeal Cert.KernelIdeal.Gen Cert.GraphLayer

variable (V : (c : Dev nD) → (b : Ref sig .tc) → Buf (Elt Ideal) ((c : Thread nD τ).loc b))

theorem zero_offsets : (![0, 0] : Fin 2 → Nat) = fun _ => 0 := funext fun a => by fin_cases a <;> rfl

/-- The body's product at an entry: the sum over the shared axis of the loaded blocks' entries. -/
theorem payload_apply (x0 : Vec Ideal S2000x512 .f32) (x1 : Vec Ideal S512x64 .f32) (p : Fin 2000) (o : Fin 64) :
    k0_pay1 (F := Ideal) x0 x1 (ix2 p o) = ∑ c : Fin 512, x0 (ix2 p c) * x1 (ix2 c o) := by
  unfold k0_pay1
  exact Cert.PointConv.plainMatmul_zero_apply (R := 2000) (n := 512) (k := 64)
    Facts₀.dot_S2000x512_S512x64_S2000x64_1_0_0_1_n_n_wf none
    (truncf .bf16 x0 Facts₀.bitsLt_bf16_f32) (truncf .bf16 x1 Facts₀.bitsLt_bf16_f32) p o

/-- The index maps over the grid: the features' and the result's blocks are block `t` along the rows, the weights' block
    is the whole matrix. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- An entry of the body's product is the entry of `x · W` in the same column and in row `2000·r + p`, when the loaded
    features are rows `2000·r …` of `x` and the loaded weights are `W`. -/
theorem block_entry (x : (⟨2, ![100000, 512]⟩ : Shape).Idx → EReal) (W : (⟨2, ![512, 64]⟩ : Shape).Idx → EReal)
    (x0 : Vec Ideal S2000x512 .f32) (x1 : Vec Ideal S512x64 .f32) (r : ℕ)
    (hx0 : ∀ (p : Fin 2000) (k : Fin 512) (i : (⟨2, ![100000, 512]⟩ : Shape).Idx),
      (i 0).val = r * 2000 + p.val → (i 1).val = k.val → x0 (ix2 p k) = x i)
    (hx1 : x1 = W) (y : S2000x64.Idx) (i : (⟨2, ![100000, 64]⟩ : Shape).Idx)
    (h0 : (i 0).val = r * 2000 + (y 0).val) (h1 : (i 1).val = (y 1).val) :
    k0_pay1 (F := Ideal) x0 x1 y = ofEntries (product x W) i := by
  subst hx1
  obtain ⟨p, o, rfl⟩ : ∃ (p : Fin 2000) (o : Fin 64), y = ix2 p o := ⟨y 0, y 1, eq_ix2 y⟩
  obtain ⟨a, b, rfl⟩ : ∃ (a : Fin 100000) (b : Fin 64), i = ix2 a b := ⟨i 0, i 1, eq_ix2 i⟩
  have hb : b = o := Fin.ext h1
  subst hb
  rw [payload_apply, ofEntries_apply]
  unfold product
  exact Finset.sum_congr rfl fun k _ => congrArg (· * x1 (ix2 k b)) (hx0 p k (ix2 a k) h0 rfl)

/-- What point `t` writes back is block `t` of the product of the arrays the region finds. -/
theorem flushed_eq (c : Dev nD) (t : Fin cfg0.N) :
    (dat0 V c).flushed 2 t = ((cfg0.win 2).blk t).view.read (Elt Ideal)
      (ofEntries (product (V c main_arg0) (V c main_arg2))) := by
  show (cfg0.win 2).cut (grid0.coords t) ((dat0 V c).after 2 t) = _
  rw [after0_2]
  unfold out0_2
  rw [View.canon_unit_zero zero_offsets]
  simp only [View.ld_unit_zero (S := S2000x512) zero_offsets, View.ld_unit_zero (S := S512x64) zero_offsets]
  obtain ⟨e0, e1, e2, e3, e4, e5⟩ := index_facts t
  funext j
  show k0_pay1 (F := Ideal) (iblk0 V c 0 t) (iblk0 V c 1 t) j
    = ofEntries (product (V c main_arg0) (V c main_arg2)) (((cfg0.win 2).blk t).view.emb j)
  refine block_entry (V c main_arg0) (V c main_arg2) (iblk0 V c 0 t) (iblk0 V c 1 t) t.val ?_ ?_ j _ ?_ ?_
  · intro p k i hi0 hi1
    show V c main_arg0 (((cfg0.win 0).blk t).view.emb (ix2 p k)) = V c main_arg0 i
    refine congrArg (V c main_arg0) (funext fun a => Fin.ext ?_)
    match a with
    | ⟨0, _⟩ => show win0_0.index t (0 : Fin 2) * 2000 + 1 * p.val = (i 0).val; rw [e0, hi0]; omega
    | ⟨1, _⟩ => show win0_0.index t (1 : Fin 2) * 512 + 1 * k.val = (i 1).val; rw [e1, hi1]; omega
  · funext y
    show V c main_arg2 (((cfg0.win 1).blk t).view.emb y) = V c main_arg2 y
    refine congrArg (V c main_arg2) (funext fun a => Fin.ext ?_)
    match a with
    | ⟨0, _⟩ => show win0_1.index t (0 : Fin 2) * 512 + 1 * (y 0).val = (y 0).val; rw [e2]; omega
    | ⟨1, _⟩ => show win0_1.index t (1 : Fin 2) * 64 + 1 * (y 1).val = (y 1).val; rw [e3]; omega
  · show win0_2.index t (0 : Fin 2) * 2000 + 1 * (j 0).val = t.val * 2000 + (j 0).val; rw [e4]; omega
  · show win0_2.index t (1 : Fin 2) * 64 + 1 * (j 1).val = (j 1).val; rw [e5]; omega

/-- An index of the result is in point `t`'s block iff each coordinate is in the block's range on its axis. -/
theorem mem_block (t : Fin cfg0.N) (i : S100000x64.Idx) :
    i ∈ ((cfg0.win 2).blk t).view.set ↔ ∀ a : Fin 2, win0_2.index t a * S2000x64.size a ≤ (i a).val
      ∧ (i a).val < win0_2.index t a * S2000x64.size a + S2000x64.size a := by
  show i ∈ ((View.whole main_v0).slice (win0_2.rect t)).set ↔ _
  rw [View.set_slice_whole, Rect.mem_set_unit]
  exact Iff.rfl

/-- Row `r` of the result lies in the block of point `r / 2000`. -/
theorem covered (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 50 := N_0
  have ht : (i 0).val / 2000 < cfg0.N := by rw [hN]; omega
  obtain ⟨e0, e1, e2, e3, e4, e5⟩ := index_facts ⟨(i 0).val / 2000, ht⟩
  refine ⟨⟨(i 0).val / 2000, ht⟩, flush0_2 _, ?_⟩
  rw [mem_block]
  intro a
  match a with
  | ⟨0, _⟩ =>
    show win0_2.index ⟨(i 0).val / 2000, ht⟩ (0 : Fin 2) * 2000 ≤ (i 0).val
      ∧ (i 0).val < win0_2.index ⟨(i 0).val / 2000, ht⟩ (0 : Fin 2) * 2000 + 2000
    rw [e4]; show (i 0).val / 2000 * 2000 ≤ (i 0).val ∧ (i 0).val < (i 0).val / 2000 * 2000 + 2000; omega
  | ⟨1, _⟩ =>
    show win0_2.index ⟨(i 0).val / 2000, ht⟩ (1 : Fin 2) * 64 ≤ (i 1).val
      ∧ (i 1).val < win0_2.index ⟨(i 0).val / 2000, ht⟩ (1 : Fin 2) * 64 + 64
    rw [e5]; omega

/-- After the region the result array is the product of the arrays the region found. -/
theorem product_array (c : Dev nD) :
    (dat0 V c).arrAt 2 cfg0.N = ofEntries (product (V c main_arg0) (V c main_arg2)) :=
  (dat0 V c).arrAt_eq_of_cover 2 _ (fun t _ => flushed_eq V c t) (covered)

end Cert.KernelIdeal.Linear

end
-- ==== Proof.LibRowLayout.lean ====
/-
  A vector laid out as a one-row matrix, two ways, and a one-row matrix copied down the rows.

  A bias vector of n entries meets an R×n table as a one-row matrix copied down the R rows. A kernel gets the row by a
  reshape of the vector to 1×n on the host and copies it with `vector.broadcast`; jnp gets it by a broadcast of the vector
  into dimension 1 of a 1×n matrix and a second broadcast down the rows. The two one-row matrices are the same matrix
  (`rowLayout`: entry (0, k) of either is entry k of the vector), and the kernel's copy, read at (r, k), is the row at
  (0, k) (`rowBroadcast_apply`). Stated for any entry type and any sizes; n = 1 is a bias cell met with a column.
-/
import Idealize.ShloMosaic.Lib.Pipeline.Value
import Idealize.ShloMosaic.Lib.ValueIdx

noncomputable section

namespace Idealize.ShloMosaic.RowLayout

open Idealize.ShloMosaic Idealize.ShloMosaic.ValueIdx

/-- A one-row matrix copied down R rows (a kernel's `vector.broadcast` of 1×n to R×n), read at (r, k), is the row at (0, k). -/
theorem rowBroadcast_apply {α : Type} {R n : ℕ} (x : (⟨2, ![1, n]⟩ : Shape).Idx → α)
    (h : (⟨2, ![1, n]⟩ : Shape).Broadcasts ⟨2, ![R, n]⟩) (r : Fin R) (k : Fin n) :
    broadcastTo ⟨2, ![R, n]⟩ x h (ix2 r k) = x (ix2 (0 : Fin 1) k) := by
  refine broadcastTo_apply x h (ix2 r k) (ix2 (0 : Fin 1) k) fun a => ?_
  match a with
  | ⟨0, _⟩ => rfl
  | ⟨1, _⟩ =>
    show k.val = if n = 1 then 0 else k.val
    split_ifs with hn
    · have := k.isLt; omega
    · rfl

/-- A vector of n entries broadcast into dimension 1 of a 1×n matrix, read at (z, k), is the vector at k. -/
theorem rowOfVector_apply {α : Type} {n : ℕ} (b : (⟨1, ![n]⟩ : Shape).Idx → α)
    (h : (⟨1, ![n]⟩ : Shape).BroadcastsInDim ⟨2, ![1, n]⟩ ![1]) (z : Fin 1) (k : Fin n) :
    broadcastInDim ⟨2, ![1, n]⟩ ![1] h b (ix2 z k) = b (ix1 k) := by
  refine broadcastInDim_apply ![1] h b (ix2 z k) (ix1 k) fun a => ?_
  match a with
  | ⟨0, _⟩ =>
    show k.val = if n = 1 then 0 else k.val
    split_ifs with hn
    · have := k.isLt; omega
    · rfl

/-- A vector of n entries reshaped to 1×n is the vector broadcast into dimension 1 of a 1×n matrix. -/
theorem rowLayout {α : Type} {n : ℕ} (b : (⟨1, ![n]⟩ : Shape).Idx → α) (h : (⟨1, ![n]⟩ : Shape).ShapeCasts ⟨2, ![1, n]⟩)
    (h' : (⟨1, ![n]⟩ : Shape).BroadcastsInDim ⟨2, ![1, n]⟩ ![1]) :
    shapeCast ⟨2, ![1, n]⟩ b h = broadcastInDim ⟨2, ![1, n]⟩ ![1] h' b := by
  funext j
  obtain ⟨z, k, rfl⟩ : ∃ (z : Fin 1) (k : Fin n), j = ix2 z k := ⟨j 0, j 1, eq_ix2 j⟩
  rw [rowOfVector_apply b h' z k]
  refine (shapeCast_addUnit_apply ![n] b h (ix2 z k)).trans (congrArg b (funext fun a => ?_))
  match a with
  | ⟨0, _⟩ => rfl

end Idealize.ShloMosaic.RowLayout

end
-- ==== Proof.RowNorm.lean ====
/-
  The second kernel region: the bias added to every row and the log-softmax of each row, block by block.

  At grid point `t` the body loads rows `2000·t … 2000·t + 1999` of the aggregate and the bias as a one-row matrix, copies
  the bias row down the block and adds it, and normalises each row: the row maximum (a reduction from minus infinity), the
  differences, the logarithm of the sum of their exponentials, and the differences less that logarithm. Entry `(p, o)` of what
  point `t` writes back is the log-softmax of row `2000·t + p` of the biased aggregate at column `o`; the fifty blocks cover
  the array.
-/
import proofs.«121093_j83631603187959_2_alg».proof.Proof.Gen.KernelIdeal.Frame
import proofs.«121093_j83631603187959_2_alg».proof.Proof.LibRowSoftmax
import proofs.«121093_j83631603187959_2_alg».proof.Proof.LibRowLayout
import proofs.«121093_j83631603187959_2_alg».proof.Proof.Spec
import Idealize.ShloMosaic.Lib.Pipeline.Value
import Idealize.ShloMosaic.Lib.ValueIdx

noncomputable section

open scoped BigOperators

namespace Cert.KernelIdeal.RowNorm

open Idealize.ShloMosaic Idealize.ShloMosaic.TcCoe Idealize.SL.Sem Idealize.ShloMosaic.ValueIdx
open Idealize.ShloMosaic.Pipeline (Dat)
open Cert.KernelIdeal Cert.KernelIdeal.Gen Cert.GraphLayer

variable (V : (c : Dev nD) → (b : Ref sig .tc) → Buf (Elt Ideal) ((c : Thread nD τ).loc b))

theorem zero_offsets : (![0, 0] : Fin 2 → Nat) = fun _ => 0 := funext fun a => by fin_cases a <;> rfl

/-- The body's result at an entry: the log-softmax of the block's row with the bias row added. -/
theorem payload_apply (x0 : Vec Ideal S2000x64 .f32) (x1 : Vec Ideal S1x64 .f32) (p : Fin 2000) (o : Fin 64) :
    k1_pay1 (F := Ideal) x0 x1 (ix2 p o)
      = Cert.RowSoftmax.lsmRow (Ideal.ofBits .f32 0xFF800000#32) (fun k => x0 (ix2 p k) + x1 (ix2 (0 : Fin 1) k)) o := by
  unfold k1_pay1
  refine (Cert.RowSoftmax.block_lsm_apply (R := 2000) (d := 64)
    (addf (shapeCast S2000x64 x0 Facts₀.shapeCasts_S2000x64_S2000x64)
      (broadcastTo S2000x64 (shapeCast S1x64 x1 Facts₀.shapeCasts_S1x64_S1x64) Facts₀.broadcasts_S1x64_S2000x64))
    Facts₀.reduces_S2000x64_S2000 Facts₀.shapeCasts_S2000_S2000x1 Facts₀.broadcasts_S2000x1_S2000x64 p o).trans ?_
  refine congrArg (fun f => Cert.RowSoftmax.lsmRow (Ideal.ofBits .f32 0xFF800000#32) f o) (funext fun k => ?_)
  rw [addf_apply, shapeCast_self, shapeCast_self]
  exact congrArg (x0 (ix2 p k) + ·) (Idealize.ShloMosaic.RowLayout.rowBroadcast_apply x1 Facts₀.broadcasts_S1x64_S2000x64 p k)

/-- The index maps over the grid: the aggregate's and the result's blocks are block `t` along the rows, the bias row's
    block is the whole row. -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- An entry of the body's result is the entry of the row-normalised biased array in the same column and in row
    `2000·r + p`, when the loaded block is rows `2000·r …` of `a` and the loaded row is `b2`. -/
theorem block_entry (a : (⟨2, ![100000, 64]⟩ : Shape).Idx → EReal) (b2 : (⟨2, ![1, 64]⟩ : Shape).Idx → EReal)
    (x0 : Vec Ideal S2000x64 .f32) (x1 : Vec Ideal S1x64 .f32) (r : ℕ)
    (hx0 : ∀ (p : Fin 2000) (k : Fin 64) (i : (⟨2, ![100000, 64]⟩ : Shape).Idx),
      (i 0).val = r * 2000 + p.val → (i 1).val = k.val → x0 (ix2 p k) = a i)
    (hx1 : x1 = b2) (y : S2000x64.Idx) (i : (⟨2, ![100000, 64]⟩ : Shape).Idx)
    (h0 : (i 0).val = r * 2000 + (y 0).val) (h1 : (i 1).val = (y 1).val) :
    k1_pay1 (F := Ideal) x0 x1 y = ofEntries (rowNormalised a b2) i := by
  subst hx1
  obtain ⟨p, o, rfl⟩ : ∃ (p : Fin 2000) (o : Fin 64), y = ix2 p o := ⟨y 0, y 1, eq_ix2 y⟩
  obtain ⟨q, b, rfl⟩ : ∃ (q : Fin 100000) (b : Fin 64), i = ix2 q b := ⟨i 0, i 1, eq_ix2 i⟩
  have hb : b = o := Fin.ext h1
  subst hb
  rw [payload_apply, ofEntries_apply]
  unfold rowNormalised
  exact congrArg (fun f => Cert.RowSoftmax.lsmRow (Ideal.ofBits .f32 0xFF800000#32) f b)
    (funext fun k => congrArg (· + x1 (ix2 (0 : Fin 1) k)) (hx0 p k (ix2 q k) h0 rfl))

/-- What point `t` writes back is block `t` of the row-normalised biased array, of the arrays the region finds. -/
theorem flushed_eq (c : Dev nD) (t : Fin cfg1.N) :
    (dat1 V c).flushed 2 t = ((cfg1.win 2).blk t).view.read (Elt Ideal)
      (ofEntries (rowNormalised (V c main_v45) (V c main_v46))) := by
  show (cfg1.win 2).cut (grid1.coords t) ((dat1 V c).after 2 t) = _
  rw [after1_2]
  unfold out1_2
  rw [View.canon_unit_zero zero_offsets]
  simp only [View.ld_unit_zero (S := S2000x64) zero_offsets, View.ld_unit_zero (S := S1x64) zero_offsets]
  obtain ⟨e0, e1, e2, e3, e4, e5⟩ := index_facts t
  funext j
  show k1_pay1 (F := Ideal) (iblk1 V c 0 t) (iblk1 V c 1 t) j
    = ofEntries (rowNormalised (V c main_v45) (V c main_v46)) (((cfg1.win 2).blk t).view.emb j)
  refine block_entry (V c main_v45) (V c main_v46) (iblk1 V c 0 t) (iblk1 V c 1 t) t.val ?_ ?_ j _ ?_ ?_
  · intro p k i hi0 hi1
    show V c main_v45 (((cfg1.win 0).blk t).view.emb (ix2 p k)) = V c main_v45 i
    refine congrArg (V c main_v45) (funext fun a => Fin.ext ?_)
    match a with
    | ⟨0, _⟩ => show win1_0.index t (0 : Fin 2) * 2000 + 1 * p.val = (i 0).val; rw [e0, hi0]; omega
    | ⟨1, _⟩ => show win1_0.index t (1 : Fin 2) * 64 + 1 * k.val = (i 1).val; rw [e1, hi1]; omega
  · funext y
    show V c main_v46 (((cfg1.win 1).blk t).view.emb y) = V c main_v46 y
    refine congrArg (V c main_v46) (funext fun a => Fin.ext ?_)
    match a with
    | ⟨0, _⟩ => show win1_1.index t (0 : Fin 2) * 1 + 1 * (y 0).val = (y 0).val; rw [e2]; omega
    | ⟨1, _⟩ => show win1_1.index t (1 : Fin 2) * 64 + 1 * (y 1).val = (y 1).val; rw [e3]; omega
  · show win1_2.index t (0 : Fin 2) * 2000 + 1 * (j 0).val = t.val * 2000 + (j 0).val; rw [e4]; omega
  · show win1_2.index t (1 : Fin 2) * 64 + 1 * (j 1).val = (j 1).val; rw [e5]; omega

/-- An index of the result is in point `t`'s block iff each coordinate is in the block's range on its axis. -/
theorem mem_block (t : Fin cfg1.N) (i : S100000x64.Idx) :
    i ∈ ((cfg1.win 2).blk t).view.set ↔ ∀ a : Fin 2, win1_2.index t a * S2000x64.size a ≤ (i a).val
      ∧ (i a).val < win1_2.index t a * S2000x64.size a + S2000x64.size a := by
  show i ∈ ((View.whole main_v47).slice (win1_2.rect t)).set ↔ _
  rw [View.set_slice_whole, Rect.mem_set_unit]
  exact Iff.rfl

/-- Row `r` of the result lies in the block of point `r / 2000`. -/
theorem covered (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 50 := N_1
  have ht : (i 0).val / 2000 < cfg1.N := by rw [hN]; omega
  obtain ⟨e0, e1, e2, e3, e4, e5⟩ := index_facts ⟨(i 0).val / 2000, ht⟩
  refine ⟨⟨(i 0).val / 2000, ht⟩, flush1_2 _, ?_⟩
  rw [mem_block]
  intro a
  match a with
  | ⟨0, _⟩ =>
    show win1_2.index ⟨(i 0).val / 2000, ht⟩ (0 : Fin 2) * 2000 ≤ (i 0).val
      ∧ (i 0).val < win1_2.index ⟨(i 0).val / 2000, ht⟩ (0 : Fin 2) * 2000 + 2000
    rw [e4]; show (i 0).val / 2000 * 2000 ≤ (i 0).val ∧ (i 0).val < (i 0).val / 2000 * 2000 + 2000; omega
  | ⟨1, _⟩ =>
    show win1_2.index ⟨(i 0).val / 2000, ht⟩ (1 : Fin 2) * 64 ≤ (i 1).val
      ∧ (i 1).val < win1_2.index ⟨(i 0).val / 2000, ht⟩ (1 : Fin 2) * 64 + 64
    rw [e5]; omega

/-- After the region the result array is the row-normalised biased array of the arrays the region found. -/
theorem normalised_array (c : Dev nD) :
    (dat1 V c).arrAt 2 cfg1.N = ofEntries (rowNormalised (V c main_v45) (V c main_v46)) :=
  (dat1 V c).arrAt_eq_of_cover 2 _ (fun t _ => flushed_eq V c t) (covered)

end Cert.KernelIdeal.RowNorm

end
-- ==== Proof.Aggregate.lean ====
/-
  The neighbour aggregation of the graph layer, as one function of the projected features and the edge list.

  Both programs carry the projected features `h` (100000 × 64) through the same host operations: the edge list's two
  rows, each extended by the self loops `0 … 99999`, give the source and the target of each of the 1700000 edges; the
  degree of a node is the number of edges that end in it (a scatter-add of ones); its weight is the inverse square root of
  the degree, floored at one, where the degree is positive, and zero elsewhere; an edge's coefficient is the product of the
  weights of its two ends (each gathered with negative positions wrapped by 100000); and the aggregate is the scatter-add, by
  target, of the gathered source rows of `h` times the edge's coefficient. Nothing below opens these operations: the two
  programs are compared with this function applied to equal arguments.
-/
import proofs.«121093_j83631603187959_2_alg».proof.Proof.Gen.KernelIdeal
import Idealize.ShloMosaic.PureOps.Ideal

noncomputable section

namespace Cert.KernelIdeal.Aggregate

open Idealize.ShloMosaic Cert.KernelIdeal
open Cert.KernelIdeal.Facts₀

/-- The first row of the edge list (the sources) followed by the self loops. -/
def ends0 (e : IVec S2x1600000 32) : IVec S1700000 32 :=
  concatenate S1700000 0 [⟨S1600000, shapeCast _ (extractStridedSlice S1x1600000 ![0, 0] e slices_S2x1600000_S1x1600000_0_0) shapeCasts_S1x1600000_S1600000⟩, ⟨S100000, iotaInDim S100000 32 0⟩] concatenates_S1600000_S100000_S1700000_d0

/-- The second row of the edge list (the targets) followed by the self loops. -/
def ends1 (e : IVec S2x1600000 32) : IVec S1700000 32 :=
  concatenate S1700000 0 [⟨S1600000, shapeCast _ (extractStridedSlice S1x1600000 ![1, 0] e slices_S2x1600000_S1x1600000_1_0) shapeCasts_S1x1600000_S1600000⟩, ⟨S100000, iotaInDim S100000 32 0⟩] concatenates_S1600000_S100000_S1700000_d0

/-- Positions as a column, a negative one moved up by 100000. -/
def wrapped (v : IVec S1700000 32) : IVec S1700000x1 32 :=
  broadcastInDim S1700000x1 ![0] bcast_S1700000_S1700000x1_0 (select (cmpi .slt v (broadcastInDim S1700000 ![] bcast_S_S1700000 (constantI S_ 32 0#32))) (addi v (broadcastInDim S1700000 ![] bcast_S_S1700000 (constantI S_ 32 100000#32))) v)

/-- The number of edges ending in each node. -/
def degree (dst : IVec S1700000 32) : FVec Ideal S100000 .f32 :=
  Host.scatterAdd scatter_S100000_S1700000x1_S1700000_n_0_0_1 (broadcastInDim S100000 ![] bcast_S_S100000 (constant (F := Ideal) S_ .f32 0x00000000#32)) (broadcastInDim S1700000x1 ![0] bcast_S1700000_S1700000x1_0 dst) (broadcastInDim S1700000 ![] bcast_S_S1700000 (constant (F := Ideal) S_ .f32 0x3F800000#32))

/-- A node's weight: the inverse square root of its degree floored at one, where the degree is positive; zero elsewhere. -/
def weight (dst : IVec S1700000 32) : FVec Ideal S100000 .f32 :=
  select (cmpf (F := Ideal) .ogt (degree dst) (broadcastInDim S100000 ![] bcast_S_S100000 (constant (F := Ideal) S_ .f32 0x00000000#32))) (Host.rsqrt (maximumf (degree dst) (broadcastInDim S100000 ![] bcast_S_S100000 (constant (F := Ideal) S_ .f32 0x3F800000#32)))) (broadcastInDim S100000 ![] bcast_S_S100000 (id (constant (F := Ideal) S_ .f32 0x00000000#32)))

/-- An edge's coefficient: the product of the weights of its two ends. -/
def coefficient (src dst : IVec S1700000 32) : FVec Ideal S1700000 .f32 :=
  mulf (Host.gather gather_S100000_S1700000x1_S1700000_n_0_n_n_0_1_1 (weight dst) (wrapped src)) (Host.gather gather_S100000_S1700000x1_S1700000_n_0_n_n_0_1_1 (weight dst) (wrapped dst))

/-- The aggregate over given sources and targets. -/
def aggregateBy (h : FVec Ideal S100000x64 .f32) (src dst : IVec S1700000 32) :
    FVec Ideal S100000x64 .f32 :=
  Host.scatterAdd scatter_S100000x64_S1700000x1_S1700000x64_1_0_0_1 (broadcastInDim S100000x64 ![] bcast_S_S100000x64 (constant (F := Ideal) S_ .f32 0x00000000#32)) (broadcastInDim S1700000x1 ![0] bcast_S1700000_S1700000x1_0 dst) (mulf (Host.gather gather_S100000x64_S1700000x1_S1700000x64_1_0_n_n_0_1_164 h (wrapped src)) (broadcastInDim S1700000x64 ![0, 1] bcast_S1700000x1_S1700000x64_0_1 (broadcastInDim S1700000x1 ![0] bcast_S1700000_S1700000x1_0 (coefficient src dst))))

/-- The aggregate of `h` over the edge list `e`. -/
def aggregate (h : FVec Ideal S100000x64 .f32) (e : IVec S2x1600000 32) :
    FVec Ideal S100000x64 .f32 :=
  aggregateBy h (ends0 e) (ends1 e)

end Cert.KernelIdeal.Aggregate

end
-- ==== Proof.LibJoinForms.lean ====
/-
  Two arrays joined along an axis, with the pieces as plain arguments.

  The library's `concatenate` takes its pieces as a list of shape-and-array pairs, and its side condition speaks of that
  list; a rewrite of one piece would have to carry the condition along. `cat2` is the same join of two pieces with the
  condition stated about the two shapes only, so that each piece is an ordinary argument: `concat_cat2` says the two forms are
  one function (by definition).
-/
import Idealize.ShloMosaic.PureOps.Ideal

noncomputable section

namespace Idealize.ShloMosaic.JoinForms

open Idealize.ShloMosaic

/-- Two arrays joined along axis `a` of the result shape `t`. -/
def cat2 {α : Type} (t : Shape) (a : Fin t.rank) (s1 s2 : Shape) (h : Shape.Concatenates [s1, s2] t a)
    (x : s1.Idx → α) (y : s2.Idx → α) : t.Idx → α :=
  concatenate t a [⟨s1, x⟩, ⟨s2, y⟩] h

/-- The library's join of a two-element list of pieces is `cat2` of the pieces. -/
theorem concat_cat2 {α : Type} (t : Shape) (a : Fin t.rank) (s1 s2 : Shape) (x : s1.Idx → α) (y : s2.Idx → α)
    (h : Shape.Concatenates (([(⟨s1, x⟩ : (s : Shape) × (s.Idx → α)), ⟨s2, y⟩]).map
      (fun p : (s : Shape) × (s.Idx → α) => p.1)) t a) :
    concatenate t a [⟨s1, x⟩, ⟨s2, y⟩] h = cat2 t a s1 s2 (show Shape.Concatenates [s1, s2] t a from h) x y := rfl

end Idealize.ShloMosaic.JoinForms

end
-- ==== Proof.Between.lean ====
/-
  What the second kernel region finds: the host operations between the two regions, read off the first region's result.

  After the first region the host computes, from that region's result array and the edge list, the aggregate (the
  function of Aggregate.lean) and lays the bias vector out as a one-row matrix. Here the buffers the second region reads
  are written as those two functions of the buffers as the first region left them; the operations are not opened.
-/
import proofs.«121093_j83631603187959_2_alg».proof.Proof.Gen.KernelIdeal.Frame
import proofs.«121093_j83631603187959_2_alg».proof.Proof.Aggregate
import proofs.«121093_j83631603187959_2_alg».proof.Proof.LibJoinForms
import Idealize.ShloMosaic.Lib.StableHlo.Run

noncomputable section

namespace Cert.KernelIdeal.Between

open Idealize.ShloMosaic Idealize.ShloMosaic.TcCoe Idealize.SL.Sem Idealize.ShloMosaic.StableHlo
open Cert.KernelIdeal Cert.KernelIdeal.Gen Cert.KernelIdeal.Aggregate

-- the closing comparison walks the whole aggregation term once
set_option maxRecDepth 100000 in
/-- The aggregate buffer after the host operations, from any contents `X` before them. -/
theorem aggregate_after (X : Valuation τ sig (Elt Ideal)) :
    StableHlo.after hostOps1_2 (StableHlo.after hostOps1_1 (StableHlo.after hostOps1 X)) (Proc.devRef .tc main_v45)
      = aggregate (X (Proc.devRef .tc main_v0)) (X (Proc.devRef .tc main_arg1)) := by
  unfold aggregate aggregateBy coefficient weight degree wrapped ends0 ends1
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', Idealize.ShloMosaic.JoinForms.concat_cat2, cast_eq]
  rfl

/-- The bias row after the host operations: the bias vector laid out as a one-row matrix. -/
theorem bias_row_after (X : Valuation τ sig (Elt Ideal)) :
    StableHlo.after hostOps1_2 (StableHlo.after hostOps1_1 (StableHlo.after hostOps1 X)) (Proc.devRef .tc main_v46)
      = shapeCast S1x64 (X (Proc.devRef .tc main_arg3)) Facts₀.shapeCasts_S64_S1x64 := by
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', cast_eq]
  rfl

end Cert.KernelIdeal.Between

end
-- ==== Proof.KernelRun.lean ====
/-
  The kernel program's run with its result named.

  Every weakly fair execution of the program ends with the argument arrays as launched, and with the result buffer holding
  what the second region's write-backs leave of it: the run is the launch over the program's five segments (the first region,
  three stretches of host operations, the second region), read at the end at the result's buffer as well as at the
  arguments'.
-/
import proofs.«121093_j83631603187959_2_alg».proof.Proof.Gen.KernelIdeal.Frame

set_option maxRecDepth 16384

noncomputable section

namespace Cert.KernelIdeal.Result

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run: the result buffer ends at the contents the last segment boundary names, the arguments as launched. -/
theorem run_result : θ_run defs (onTc (τ := τ) (main (F := F))) ⟨m, fun _ => 0, ρ⟩ (fun r => ∀ c : Dev nD,
      r.2.mem ((c.tc : Thread nD τ).loc main_v47) = W5 m ρ c (Proc.devRef .tc main_v47)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v47 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c)⟩)

end Cert.KernelIdeal.Result

end
-- ==== Proof.Layer.lean ====
/-
  The whole graph layer as one function of the four arguments.

  `layer x e W b`: the product `x · W`, aggregated over the edge list `e`, the bias `b` added to every row, and the
  log-softmax of each row. Both programs end with their result at this function of their arguments.
-/
import proofs.«121093_j83631603187959_2_alg».proof.Proof.Spec
import proofs.«121093_j83631603187959_2_alg».proof.Proof.Aggregate

noncomputable section

namespace Cert.GraphLayer

open Idealize.ShloMosaic Cert.KernelIdeal

/-- The layer's result from the node features, the edge list, the weights and the bias. -/
def layer (x : FVec Ideal S100000x512 .f32) (e : IVec S2x1600000 32) (W : FVec Ideal S512x64 .f32)
    (b : FVec Ideal S64 .f32) : FVec Ideal S100000x64 .f32 :=
  ofEntries (biasedLogSoftmax (Cert.KernelIdeal.Aggregate.aggregate (ofEntries (product x W)) e) b)

end Cert.GraphLayer

end
-- ==== Proof.KernelValue.lean ====
/-
  The kernel program's result is the layer's function of its arguments.

  The result buffer ends at what the second region's write-backs leave: the row-normalised biased array of the aggregate
  and the bias row that region finds. Those are the host operations' functions of what the first region left — the
  aggregate of its result array over the edge list, and the bias vector as a one-row matrix — and the first region's result
  array is `x · W`. Put together: `layer x e W b`.
-/
import proofs.«121093_j83631603187959_2_alg».proof.Proof.Linear
import proofs.«121093_j83631603187959_2_alg».proof.Proof.RowNorm
import proofs.«121093_j83631603187959_2_alg».proof.Proof.Between
import proofs.«121093_j83631603187959_2_alg».proof.Proof.KernelRun
import proofs.«121093_j83631603187959_2_alg».proof.Proof.Layer

noncomputable section

namespace Cert.KernelIdeal.Value

open Idealize.ShloMosaic Idealize.ShloMosaic.TcCoe Idealize.SL.Sem
open Cert.KernelIdeal Cert.KernelIdeal.Gen Cert.GraphLayer

variable (m : (ℓ : Loc nD τ sig) → Buf (Elt Ideal) ℓ) (ρ : Dev nD → PrngReg)

/-- The result buffer at the last segment boundary is the layer of the launch contents of the arguments. -/
theorem result_eq (c : Dev nD) :
    W5 m ρ c (Proc.devRef .tc main_v47)
      = layer (m ((c.tc : Thread nD τ).loc main_arg0)) (m ((c.tc : Thread nD τ).loc main_arg1))
          (m ((c.tc : Thread nD τ).loc main_arg2)) (m ((c.tc : Thread nD τ).loc main_arg3)) := by
  have h5 : W5 m ρ c (Proc.devRef .tc main_v47) = (dat1 (V4 m ρ) c).arrAt 2 cfg1.N := W5_arr m ρ c 2
  have ha : V4 m ρ c main_v45
      = Cert.KernelIdeal.Aggregate.aggregate (W1 m ρ c (Proc.devRef .tc main_v0)) (W1 m ρ c (Proc.devRef .tc main_arg1)) :=
    Cert.KernelIdeal.Between.aggregate_after (W1 m ρ c)
  have hb : V4 m ρ c main_v46 = shapeCast S1x64 (W1 m ρ c (Proc.devRef .tc main_arg3)) Facts₀.shapeCasts_S64_S1x64 :=
    Cert.KernelIdeal.Between.bias_row_after (W1 m ρ c)
  have h0 : W1 m ρ c (Proc.devRef .tc main_v0)
      = ofEntries (product (m ((c.tc : Thread nD τ).loc main_arg0)) (m ((c.tc : Thread nD τ).loc main_arg2))) :=
    (W1_arr m ρ c 2).trans (Cert.KernelIdeal.Linear.product_array (V0 m ρ) c)
  have h1 : W1 m ρ c (Proc.devRef .tc main_arg1) = m ((c.tc : Thread nD τ).loc main_arg1) :=
    W1_of_ne m ρ c main_arg1 (by decide)
  have h3 : W1 m ρ c (Proc.devRef .tc main_arg3) = m ((c.tc : Thread nD τ).loc main_arg3) :=
    W1_of_ne m ρ c main_arg3 (by decide)
  rw [h5, Cert.KernelIdeal.RowNorm.normalised_array (V4 m ρ) c, ha, hb, h0, h1, h3]
  unfold layer
  exact congrArg ofEntries (rowNormalised_reshape _ _ _)

/-- The kernel program's run: the result buffer ends at the layer of the arguments, the arguments as launched. -/
theorem run : θ_run defs (onTc (τ := τ) (main (F := Ideal))) ⟨m, fun _ => 0, ρ⟩ (fun r => ∀ c : Dev nD,
      r.2.mem ((c.tc : Thread nD τ).loc main_v47)
        = layer (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1.trans (result_eq m ρ c), (h c).2⟩)
    (Cert.KernelIdeal.Result.run_result (F := Ideal) m ρ)

end Cert.KernelIdeal.Value

end
-- ==== Proof.LibHostRowForms.lean ====
/-
  Host reductions and broadcasts of matrices, read at an index by coordinates, over the extended reals.

  A host sum of a matrix `[a, b]` from the zero word along its second axis is, at `i`, the sum of row `i`; along its
  first axis, at `j`, the sum of column `j`; a host maximum along the second axis from the word of minus infinity
  is the fold of `max` over the row. A vector `[a]` broadcast to a column `[a, 1]`, a column `[a, 1]` or a row
  `[1, b]` broadcast to `[a, b]`, and a vector `[b]` broadcast to a row `[1, b]` read the entry their kept coordinate
  names. Nothing here needs an entry to be finite.
-/
import Idealize.ShloMosaic.PureOps.Ideal.Laws
import Idealize.ShloMosaic.Lib.Pipeline.Value
import Idealize.ShloMosaic.Lib.ValueIdx

noncomputable section

open scoped BigOperators

namespace Cert.HostRowForms

open Idealize.ShloMosaic Idealize.ShloMosaic.ValueIdx

/-- The matrix index that reduces to `i` along the second axis and has `k` there is `(i, k)`. -/
theorem lift_axis1 {a b : ℕ} (h : (⟨2, ![a, b]⟩ : Shape).Reduces [1] ⟨1, ![a]⟩) (i : Fin a)
    (k : Fin ((⟨2, ![a, b]⟩ : Shape).size 1)) : h.lift (ix1 i) k = ix2 i (⟨k.val, k.isLt⟩ : Fin b) := by
  funext d; apply Fin.ext
  match d with
  | ⟨0, _⟩ => rfl
  | ⟨1, _⟩ => rfl

/-- The matrix index that reduces to `j` along the first axis and has `g` there is `(g, j)`. -/
theorem lift_axis0 {a b : ℕ} (h : (⟨2, ![a, b]⟩ : Shape).Reduces [0] ⟨1, ![b]⟩) (j : Fin b)
    (g : Fin ((⟨2, ![a, b]⟩ : Shape).size 0)) : h.lift (ix1 j) g = ix2 (⟨g.val, g.isLt⟩ : Fin a) j := by
  funext d; apply Fin.ext
  match d with
  | ⟨0, _⟩ => rfl
  | ⟨1, _⟩ => rfl

/-- A host sum along the rows from the zero word, at `i`: the sum of row `i`. -/
theorem reduceAdd_rows {a b : ℕ} {u : Shape} (x : FVec Ideal ⟨2, ![a, b]⟩ .f32)
    (h' : (⟨2, ![a, b]⟩ : Shape).ReducesTo [1] ⟨1, ![a]⟩) (h : (⟨2, ![a, b]⟩ : Shape).Reduces [1] ⟨1, ![a]⟩)
    (hu : 0 < u.numel) (i : Fin a) :
    Host.reduceAdd x (constant (F := Ideal) u .f32 0x00000000#32) h' hu (ix1 i) = ∑ k : Fin b, x (ix2 i k) := by
  show Ideal.hostReduceAdd h' x (Ideal.ofBits .f32 0x00000000#32) (ix1 i) = _
  rw [Ideal.hostReduceAdd_single h' h, Ideal.ofBits_zero_f32, zero_add]
  exact Finset.sum_congr rfl fun k _ => congrArg x (lift_axis1 h i k)

/-- A host sum down the columns from the zero word, at `j`: the sum of column `j`. -/
theorem reduceAdd_cols {a b : ℕ} {u : Shape} (x : FVec Ideal ⟨2, ![a, b]⟩ .f32)
    (h' : (⟨2, ![a, b]⟩ : Shape).ReducesTo [0] ⟨1, ![b]⟩) (h : (⟨2, ![a, b]⟩ : Shape).Reduces [0] ⟨1, ![b]⟩)
    (hu : 0 < u.numel) (j : Fin b) :
    Host.reduceAdd x (constant (F := Ideal) u .f32 0x00000000#32) h' hu (ix1 j) = ∑ g : Fin a, x (ix2 g j) := by
  show Ideal.hostReduceAdd h' x (Ideal.ofBits .f32 0x00000000#32) (ix1 j) = _
  rw [Ideal.hostReduceAdd_single h' h, Ideal.ofBits_zero_f32, zero_add]
  exact Finset.sum_congr rfl fun g _ => congrArg x (lift_axis0 h j g)

/-- A host maximum along the rows from the word of minus infinity, at `i`: the fold of `max` over row `i`. -/
theorem reduceMax_rows {a b : ℕ} {u : Shape} (x : FVec Ideal ⟨2, ![a, b]⟩ .f32)
    (h' : (⟨2, ![a, b]⟩ : Shape).ReducesTo [1] ⟨1, ![a]⟩) (h : (⟨2, ![a, b]⟩ : Shape).Reduces [1] ⟨1, ![a]⟩)
    (hu : 0 < u.numel) (i : Fin a) :
    Host.reduce (FloatOps.maximumf (F := Ideal) (φ := .f32)) x (constant (F := Ideal) u .f32 0xFF800000#32) h' hu (ix1 i)
      = (Finset.univ : Finset (Fin b)).fold max (Ideal.ofBits .f32 0xFF800000#32) (fun k => x (ix2 i k)) := by
  have hf : (FloatOps.maximumf (F := Ideal) (φ := .f32)) = (max : EReal → EReal → EReal) := rfl
  rw [hf, Host.reduce_eq_fold_single (max : EReal → EReal → EReal) x _ h' h hu (ix1 i)]
  exact congrArg (fun f => Finset.fold max (Ideal.ofBits .f32 0xFF800000#32) f (Finset.univ : Finset (Fin b)))
    (funext fun k => congrArg x (lift_axis1 h i k))

variable {α : Type}

/-- Where an operand axis goes under a `broadcast_in_dim`: an axis that is not a unit axis goes to a result axis of
    its own size, so when only one result axis `b` has that size, it goes to `b`. -/
theorem dims_eq_of_size {s t : Shape} {dims : Fin s.rank → Fin t.rank} (h : s.BroadcastsInDim t dims) (a : Fin s.rank)
    (b : Fin t.rank) (hne : s.size a ≠ 1) (huniq : ∀ b' : Fin t.rank, t.size b' = s.size a → b' = b) : dims a = b := by
  rcases h.2 a with h1 | h1
  · exact absurd h1 hne
  · exact huniq _ h1.symm

/-- A vector `[a]` broadcast along a new unit axis to the column `[a, 1]` reads, at `(i, u)`, the vector at `i`. -/
theorem bcast_a_a1_apply {a : ℕ} (v : (⟨1, ![a]⟩ : Shape).Idx → α) (dims : Fin 1 → Fin 2) (hd : dims 0 = 0)
    (h : (⟨1, ![a]⟩ : Shape).BroadcastsInDim ⟨2, ![a, 1]⟩ dims) (i : Fin a) (u : Fin 1) :
    broadcastInDim ⟨2, ![a, 1]⟩ dims h v (ix2 i u) = v (ix1 i) := by
  refine broadcastInDim_apply dims h v (ix2 i u) (ix1 i) fun ax => ?_
  match ax with
  | ⟨0, _⟩ =>
    show i.val = if a = 1 then 0 else ((ix2 i u : (⟨2, ![a, 1]⟩ : Shape).Idx) (dims 0)).val
    rw [hd]
    split
    · have := i.isLt; omega
    · rfl

/-- A column `[a, 1]` broadcast to `[a, b]` reads, at `(i, j)`, the column at `(i, 0)`. -/
theorem bcast_a1_ab_apply {a b : ℕ} (v : (⟨2, ![a, 1]⟩ : Shape).Idx → α) (dims : Fin 2 → Fin 2) (h0 : dims 0 = 0)
    (h : (⟨2, ![a, 1]⟩ : Shape).BroadcastsInDim ⟨2, ![a, b]⟩ dims) (i : Fin a) (j : Fin b) :
    broadcastInDim ⟨2, ![a, b]⟩ dims h v (ix2 i j) = v (ix2 i (0 : Fin 1)) := by
  refine broadcastInDim_apply dims h v (ix2 i j) (ix2 i (0 : Fin 1)) fun ax => ?_
  match ax with
  | ⟨0, _⟩ =>
    show i.val = if a = 1 then 0 else ((ix2 i j : (⟨2, ![a, b]⟩ : Shape).Idx) (dims 0)).val
    rw [h0]
    split
    · have := i.isLt; omega
    · rfl
  | ⟨1, _⟩ => rfl

/-- A row `[1, b]` broadcast to `[a, b]` reads, at `(i, j)`, the row at `(0, j)`. -/
theorem bcast_1b_ab_apply {a b : ℕ} (v : (⟨2, ![1, b]⟩ : Shape).Idx → α) (dims : Fin 2 → Fin 2) (h1 : dims 1 = 1)
    (h : (⟨2, ![1, b]⟩ : Shape).BroadcastsInDim ⟨2, ![a, b]⟩ dims) (i : Fin a) (j : Fin b) :
    broadcastInDim ⟨2, ![a, b]⟩ dims h v (ix2 i j) = v (ix2 (0 : Fin 1) j) := by
  refine broadcastInDim_apply dims h v (ix2 i j) (ix2 (0 : Fin 1) j) fun ax => ?_
  match ax with
  | ⟨0, _⟩ => rfl
  | ⟨1, _⟩ =>
    show j.val = if b = 1 then 0 else ((ix2 i j : (⟨2, ![a, b]⟩ : Shape).Idx) (dims 1)).val
    rw [h1]
    split
    · have := j.isLt; omega
    · rfl

/-- A vector `[b]` broadcast along a new leading unit axis to the row `[1, b]` reads, at `(u, j)`, the vector at `j`. -/
theorem bcast_b_1b_apply {b : ℕ} (v : (⟨1, ![b]⟩ : Shape).Idx → α) (dims : Fin 1 → Fin 2) (hd : dims 0 = 1)
    (h : (⟨1, ![b]⟩ : Shape).BroadcastsInDim ⟨2, ![1, b]⟩ dims) (u : Fin 1) (j : Fin b) :
    broadcastInDim ⟨2, ![1, b]⟩ dims h v (ix2 u j) = v (ix1 j) := by
  refine broadcastInDim_apply dims h v (ix2 u j) (ix1 j) fun ax => ?_
  match ax with
  | ⟨0, _⟩ =>
    show j.val = if b = 1 then 0 else ((ix2 u j : (⟨2, ![1, b]⟩ : Shape).Idx) (dims 0)).val
    rw [hd]
    split
    · have := j.isLt; omega
    · rfl

/-- A rank-zero constant broadcast to any shape reads the constant's value everywhere. -/
theorem bcast_scalar_apply {t : Shape} {φ : FTy} (w : BitVec φ.bits) (dims : Fin 0 → Fin t.rank)
    (h : (⟨0, ![]⟩ : Shape).BroadcastsInDim t dims) (j : t.Idx) :
    broadcastInDim t dims h (constant (F := Ideal) ⟨0, ![]⟩ φ w) j = Ideal.ofBits φ w := rfl

end Cert.HostRowForms

end
-- ==== Proof.RefTail.lean ====
/-
  The end of the reference: the bias added to every row and jax.nn.log_softmax of each row, as the host computes them,
  read entry by entry.

  The host copies the bias vector into a one-row matrix and down the rows and adds it to the aggregate; takes each row's
  maximum from minus infinity, once more against minus infinity (which changes nothing: a maximum taken from `b` is at least
  `b`), lays it out as a column and copies it along the row; subtracts; and subtracts the logarithm of each row's sum of
  exponentials of the differences, laid out and copied the same way. At row `q`, column `o` this is the log-softmax of
  row `q` of the biased aggregate at `o`.
-/
import proofs.«121093_j83631603187959_2_alg».proof.Proof.Gen.ReferenceIdeal
import proofs.«121093_j83631603187959_2_alg».proof.Proof.LibHostRowForms
import proofs.«121093_j83631603187959_2_alg».proof.Proof.LibRowSoftmax
import proofs.«121093_j83631603187959_2_alg».proof.Proof.Spec
import Idealize.ShloMosaic.Lib.ValueIdx

noncomputable section

open scoped BigOperators

namespace Cert.ReferenceIdeal.Tail

open Idealize.ShloMosaic Idealize.ShloMosaic.ValueIdx Cert.ReferenceIdeal Cert.GraphLayer
open Cert.ReferenceIdeal.Facts₀

/-- The aggregate with the bias added to every row. -/
def biased (a : FVec Ideal S100000x64 .f32) (b : FVec Ideal S64 .f32) : FVec Ideal S100000x64 .f32 :=
  addf a (broadcastInDim S100000x64 ![0, 1] bcast_S1x64_S100000x64_0_1 (broadcastInDim S1x64 ![1] bcast_S64_S1x64_1 b))

/-- Each row's maximum, copied along the row. -/
def rowMax (P : FVec Ideal S100000x64 .f32) : FVec Ideal S100000x64 .f32 :=
  broadcastInDim S100000x64 ![0, 1] bcast_S100000x1_S100000x64_0_1 (broadcastInDim S100000x1 ![0] bcast_S100000_S100000x1_0 (maximumf (broadcastInDim S100000 ![] bcast_S_S100000 (constant (F := Ideal) S_ .f32 0xFF800000#32)) (Host.reduce FloatOps.maximumf P (constant (F := Ideal) S_ .f32 0xFF800000#32) reducesTo_S100000x64_S100000_d1 h_S_)))

/-- The host's bias add and log-softmax. -/
def hostTail (a : FVec Ideal S100000x64 .f32) (b : FVec Ideal S64 .f32) : FVec Ideal S100000x64 .f32 :=
  subf (subf (biased a b) (rowMax (biased a b))) (broadcastInDim S100000x64 ![0, 1] bcast_S100000x1_S100000x64_0_1 (Host.log (broadcastInDim S100000x1 ![0] bcast_S100000_S100000x1_0 (Host.reduceAdd (Host.exp (subf (biased a b) (rowMax (biased a b)))) (constant (F := Ideal) S_ .f32 0x00000000#32) reducesTo_S100000x64_S100000_d1 h_S_))))

theorem log_apply {s : Shape} (v : FVec Ideal s .f32) (i : s.Idx) : Host.log v i = Ideal.log (v i) := rfl
theorem exp_apply {s : Shape} (v : FVec Ideal s .f32) (i : s.Idx) : Host.exp v i = Ideal.exp (v i) := rfl

theorem rowsReduce : (⟨2, ![100000, 64]⟩ : Shape).Reduces [1] ⟨1, ![100000]⟩ := by decide

theorem biased_apply (a : FVec Ideal S100000x64 .f32) (b : FVec Ideal S64 .f32) (q : Fin 100000) (k : Fin 64) :
    biased a b (ix2 q k) = a (ix2 q k) + b (ix1 k) := by
  unfold biased
  rw [addf_apply, Cert.HostRowForms.bcast_1b_ab_apply _ _ rfl, Cert.HostRowForms.bcast_b_1b_apply _ _ rfl]

theorem rowMax_apply (P : FVec Ideal S100000x64 .f32) (q : Fin 100000) (k : Fin 64) :
    rowMax P (ix2 q k) = Finset.univ.fold max (Ideal.ofBits .f32 0xFF800000#32) (fun j : Fin 64 => P (ix2 q j)) := by
  unfold rowMax
  rw [Cert.HostRowForms.bcast_a1_ab_apply _ _ rfl, Cert.HostRowForms.bcast_a_a1_apply _ _ rfl, maximumf_apply,
    Cert.HostRowForms.bcast_scalar_apply, Cert.HostRowForms.reduceMax_rows P _ rowsReduce]
  exact Cert.RowSoftmax.max_fold_max_self _ _ _

/-- The host's tail, entry by entry. -/
theorem hostTail_eq (a : FVec Ideal S100000x64 .f32) (b : FVec Ideal S64 .f32) :
    hostTail a b = ofEntries (biasedLogSoftmax a b) := by
  refine eq_ofEntries _ _ fun q o => ?_
  unfold hostTail biasedLogSoftmax Cert.RowSoftmax.lsmRow
  rw [subf_apply, subf_apply, rowMax_apply, biased_apply, Cert.HostRowForms.bcast_a1_ab_apply _ _ rfl]
  have hfold : (Finset.univ.fold max (Ideal.ofBits .f32 0xFF800000#32) fun j : Fin 64 => biased a b (ix2 q j))
      = Finset.univ.fold max (Ideal.ofBits .f32 0xFF800000#32) fun j : Fin 64 => a (ix2 q j) + b (ix1 j) :=
    congrArg (fun f => Finset.fold max (Ideal.ofBits .f32 0xFF800000#32) f (Finset.univ : Finset (Fin 64)))
      (funext fun j => biased_apply a b q j)
  rw [hfold]
  rw [log_apply, Cert.HostRowForms.bcast_a_a1_apply _ _ rfl, Cert.HostRowForms.reduceAdd_rows _ _ rowsReduce]
  refine congrArg (a (ix2 q o) + b (ix1 o) - _ - Ideal.log ·) (Finset.sum_congr rfl fun k _ => ?_)
  rw [exp_apply, subf_apply, rowMax_apply, biased_apply, hfold]

end Cert.ReferenceIdeal.Tail

end
-- ==== Proof.LibPlainHostProduct.lean ====
/-
  A plain host matrix product read at an index, over the extended reals.

  The host's `dot_general` of an `R × n` matrix by an `n × k` matrix (the left operand contracted on its second axis,
  the right one on its first, no batch axis) is, at row `q` and column `o`, the sum over `c : Fin n` of
  `A (q, c) * B (c, o)`, whatever the schedule key: there is no accumulator, and the contraction index, a one-axis
  multi-index, is re-indexed by its one coordinate. It is the host counterpart of the kernel-side product into the
  zero matrix, over the same dimension numbers `plainDims`, so the two meet in one sum.
-/
import Idealize.ShloMosaic.PureOps.Ideal
import Idealize.ShloMosaic.PureOps.Ideal.Laws
import Idealize.ShloMosaic.Lib.ValueIdx
import proofs.«121093_j83631603187959_2_alg».proof.Proof.LibPlainMatmul

noncomputable section

namespace Cert.PointConv

open Idealize.ShloMosaic Idealize.ShloMosaic.ValueIdx

/-- A host product of an `R × n` by an `n × k` matrix, at `(q, o)`: the sum over the shared axis. -/
theorem plainDotGeneral_apply {R n k : Nat} {φ₁ φ₂ : FTy} (wf) (prec : Option ContractPrecision) (sched : HostSchedule)
    (A : FVec Ideal (⟨2, ![R, n]⟩ : Shape) φ₁) (B : FVec Ideal (⟨2, ![n, k]⟩ : Shape) φ₂) (q : Fin R) (o : Fin k) :
    FloatOps.dotGeneral (plainDims R n k wf) prec sched A B (ix2 q o) = ∑ c : Fin n, A (ix2 q c) * B (ix2 c o) := by
  rw [Ideal.dotGeneral_apply, ← Equiv.sum_comp (plainContr wf).symm]
  refine Finset.sum_congr rfl fun c _ => ?_
  rw [plainDims_lhsIdx, plainDims_rhsIdx]

end Cert.PointConv

end
-- ==== Proof.RefRun.lean ====
/-
  The reference program's run, with its result as the layer's function of the arguments.

  The reference is a straight line of host operations, so every execution ends with each buffer at the fold of the
  operations over the launch contents. The result buffer's fold is: the host's product of `x` and `W`, the aggregation
  (the same operations as in the kernel program, carried as one function), and the host's bias add and log-softmax.
  The product is `x · W` entry by entry and the tail is the log-softmax of the biased rows entry by entry, so the result is
  `layer x e W b`.
-/
import proofs.«121093_j83631603187959_2_alg».proof.Proof.RefRunPatched
import proofs.«121093_j83631603187959_2_alg».proof.Proof.RefTail
import proofs.«121093_j83631603187959_2_alg».proof.Proof.Layer
import proofs.«121093_j83631603187959_2_alg».proof.Proof.LibJoinForms
import proofs.«121093_j83631603187959_2_alg».proof.Proof.LibPlainHostProduct
import Idealize.ShloMosaic.Lib.StableHlo.Run

noncomputable section

namespace Cert.ReferenceIdeal.Hand

open Idealize.ShloMosaic Idealize.ShloMosaic.TcCoe Idealize.SL.Sem Idealize.ShloMosaic.StableHlo
open Cert.ReferenceIdeal Cert.ReferenceIdeal.ValueP Cert.GraphLayer

/-- The host's product is `x · W` entry by entry. -/
theorem product_eq (x : FVec Ideal S100000x512 .f32) (W : FVec Ideal S512x64 .f32) :
    Host.dotGeneral dot_S100000x512_S512x64_S100000x64_1_0_0_1_n_n none x W = ofEntries (product x W) :=
  eq_ofEntries _ _ fun q o =>
    Cert.PointConv.plainDotGeneral_apply (R := 100000) (n := 512) (k := 64)
      Facts₀.dot_S100000x512_S512x64_S100000x64_1_0_0_1_n_n_wf none .single x W q o

-- the closing comparison walks the whole term once
set_option maxRecDepth 100000 in
/-- The result buffer after the reference's operations, from any contents `X` before them. -/
theorem result_after (X : Valuation τ sig (Elt Ideal)) :
    StableHlo.after (ops (F := Ideal)) X (Proc.devRef .tc main_v49)
      = Tail.hostTail (Cert.KernelIdeal.Aggregate.aggregate
          (Host.dotGeneral (φ₁ := .f32) (φ₂ := .f32) dot_S100000x512_S512x64_S100000x64_1_0_0_1_n_n none (X (Proc.devRef .tc main_arg0)) (X (Proc.devRef .tc main_arg2)))
          (X (Proc.devRef .tc main_arg1))) (X (Proc.devRef .tc main_arg3)) := by
  unfold Tail.hostTail Tail.rowMax Tail.biased Cert.KernelIdeal.Aggregate.aggregate Cert.KernelIdeal.Aggregate.aggregateBy
    Cert.KernelIdeal.Aggregate.coefficient Cert.KernelIdeal.Aggregate.weight Cert.KernelIdeal.Aggregate.degree
    Cert.KernelIdeal.Aggregate.wrapped Cert.KernelIdeal.Aggregate.ends0 Cert.KernelIdeal.Aggregate.ends1
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', Idealize.ShloMosaic.JoinForms.concat_cat2, cast_eq]
  rfl

/-- The result buffer's fold over the launch contents is the layer of the arguments. -/
theorem result_eq (m : (ℓ : Loc nD τ sig) → Buf (Elt Ideal) ℓ) (c : Dev nD) :
    StableHlo.after (ops (F := Ideal)) (launchContents m c) (Proc.devRef .tc main_v49)
      = layer (m ((c.tc : Thread nD τ).loc main_arg0)) (m ((c.tc : Thread nD τ).loc main_arg1))
          (m ((c.tc : Thread nD τ).loc main_arg2)) (m ((c.tc : Thread nD τ).loc main_arg3)) := by
  rw [result_after, product_eq, Tail.hostTail_eq]
  rfl

set_option maxRecDepth 8192 in
/-- The reference's run: every execution ends with the result at the layer of the arguments, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v49)
        = layer (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v49).trans (result_eq m c),
      (h c main_arg0).trans (by after_results_simp <;> rfl),
      (h c main_arg1).trans (by after_results_simp <;> rfl),
      (h c main_arg2).trans (by after_results_simp <;> rfl),
      (h c main_arg3).trans (by after_results_simp <;> rfl)⟩)
    (run_seq scopedRefs_eq scopedSems_eq defs main (fun _ => ops) main_eq (fun _ => ops_sub) m ρ)

end Cert.ReferenceIdeal.Hand

end
-- ==== Proof.lean ====
/-
  A graph-convolution layer with a log-softmax head: the kernel program against its jnp reference, over the extended reals.

  Both programs compute `log_softmax(aggregate(x · W, edges) + b)`. The kernel program multiplies `x` by `W` in a first
  kernel region (fifty blocks of 2000 rows, the operands narrowed to bf16, which is the identity over the extended
  reals), runs the neighbour aggregation as host operations, and adds the bias and normalises the rows in a second
  region (again fifty blocks of 2000 rows). The reference runs everything on the host, with the same aggregation
  operations. So both results are one function of the arguments, `Cert.GraphLayer.layer`:
    * the first region leaves `x · W` (Linear.lean), and the host's product is the same sums (RefRun.lean);
    * the aggregation is carried as one function of the product and the edge list and never opened (Aggregate.lean,
      Between.lean);
    * the second region leaves the log-softmax of each biased row (RowNorm.lean), and the host's bias add and
      jax.nn.log_softmax compute the same entries, its second maximum against minus infinity changing nothing (RefTail.lean).
  No law used needs an entry to be finite, so the precondition is never opened. The idealization rewrote no operation, so the
  sanctioned-idealization conjunct is trivial; the three frame conjuncts are the programs' runs with the result dropped.
-/
import proofs.«121093_j83631603187959_2_alg».proof.Defs
import proofs.«121093_j83631603187959_2_alg».proof.Proof.Gen.Kernel
import proofs.«121093_j83631603187959_2_alg».proof.Proof.Gen.Kernel.Skeleton
import proofs.«121093_j83631603187959_2_alg».proof.Proof.Gen.Kernel.Launch
import proofs.«121093_j83631603187959_2_alg».proof.Proof.Gen.Kernel.Points
import proofs.«121093_j83631603187959_2_alg».proof.Proof.Gen.Kernel.Frame
import proofs.«121093_j83631603187959_2_alg».proof.Proof.Gen.KernelIdeal
import proofs.«121093_j83631603187959_2_alg».proof.Proof.Gen.KernelIdeal.Skeleton
import proofs.«121093_j83631603187959_2_alg».proof.Proof.Gen.KernelIdeal.Launch
import proofs.«121093_j83631603187959_2_alg».proof.Proof.Gen.KernelIdeal.Points
import proofs.«121093_j83631603187959_2_alg».proof.Proof.Gen.KernelIdeal.Frame
import proofs.«121093_j83631603187959_2_alg».proof.Proof.Gen.ReferenceIdeal
import proofs.«121093_j83631603187959_2_alg».proof.Proof.Gen.Pre_finite_inputs
import proofs.«121093_j83631603187959_2_alg».proof.Proof.KernelValue
import proofs.«121093_j83631603187959_2_alg».proof.Proof.RefRun
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run with the result dropped. -/
theorem frame_reference : Cert.frame_ReferenceIdeal := fun m ρ _ =>
  (θ_run Cert.ReferenceIdeal.defs _ _).mono (fun _ h c => (h c).2) (Cert.ReferenceIdeal.Hand.run m ρ)

/-- The ideal pass rewrote nothing. -/
theorem preserves : Cert.preserves_Kernel_KernelIdeal := trivial

/-- Both programs end with their result at the layer of their arguments, and the arguments agree. -/
theorem algebraic : Cert.algebraic_KernelIdeal_ReferenceIdeal := by
  intro m ρ m' ρ' _ hagree
  refine ⟨fun c => Cert.GraphLayer.layer (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Value.run m ρ, ?_⟩
  refine (θ_run Cert.ReferenceIdeal.defs _ _).mono (fun _ h c => ⟨(h c).1.trans ?_, (h c).2⟩)
    (Cert.ReferenceIdeal.Hand.run m' ρ')
  rw [(hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
